-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S4096x64 : Shape := ⟨2, ![4096, 64]⟩
abbrev S64 : Shape := ⟨1, ![64]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x8192x4096 .f32) (main_arg1 : FVec F S4096x64 .f32) (main_arg2 : FVec F S64 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x8192x4096 : Shape := ⟨3, ![4, 8192, 4096]⟩
abbrev S4096x64 : Shape := ⟨2, ![4096, 64]⟩
abbrev S64 : Shape := ⟨1, ![64]⟩
abbrev S32768x4096 : Shape := ⟨2, ![32768, 4096]⟩
abbrev S4x8192x64 : Shape := ⟨3, ![4, 8192, 64]⟩
abbrev S1024x4096 : Shape := ⟨2, ![1024, 4096]⟩
abbrev S1x1024x64 : Shape := ⟨3, ![1, 1024, 64]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S4x8192x4096, .f32⟩
  | .hbm, ⟨1, _⟩ => ⟨S4096x64, .f32⟩
  | .hbm, ⟨2, _⟩ => ⟨S64, .f32⟩
  | .hbm, ⟨3, _⟩ => ⟨S32768x4096, .f32⟩
  | .hbm, ⟨4, _⟩ => ⟨S4x8192x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S64, .f32⟩
  | .local _ .vmem, ⟨4, _⟩ => ⟨S1x1024x64, .f32⟩
  | .local _ .vmem, ⟨5, _⟩ => ⟨S1x1024x64, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x4096_S32768x4096 : S4x8192x4096.ShapeCasts S32768x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  inb_S1x1024x64_S1x1024x64_0_0_0 : ∀ a, (![0, 0, 0] : Fin 3 → Nat) a + S1x1024x64.size a ≤ S1x1024x64.size a
  h_S1x1024x64 : 0 < S1x1024x64.numel
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x8192x64.size a
  hwx0_3 : ∀ i : grid0.Coords, EltTy.bits .f32 = 32 ∨ (Rect.block (s := S4x8192x64) S1x1024x64.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S4096x64 : Shape := ⟨2, ![4096, 64]⟩
abbrev S64 : Shape := ⟨1, ![64]⟩
abbrev S4x8192x64 : Shape := ⟨3, ![4, 8192, 64]⟩
abbrev S1x1x64 : Shape := ⟨3, ![1, 1, 64]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4096x64, .f32⟩
  | .hbm, ⟨2, _⟩ => ⟨S64, .f32⟩
  | .hbm, ⟨3, _⟩ => ⟨S4x8192x64, .f32⟩
  | .hbm, ⟨4, _⟩ => ⟨S1x1x64, .f32⟩
  | .hbm, ⟨5, _⟩ => ⟨S4x8192x64, .f32⟩
  | .hbm, ⟨6, _⟩ => ⟨S4x8192x64, .f32⟩
  | .hbm, ⟨7, _⟩ => ⟨S_, .f32⟩
  | .hbm, ⟨8, _⟩ => ⟨S4x8192, .f32⟩
  | .hbm, ⟨9, _⟩ => ⟨S_, .f32⟩
  | .hbm, ⟨10, _⟩ => ⟨S4x8192, .f32⟩
  | .hbm, ⟨11, _⟩ => ⟨S4x8192, .f32⟩
  | .hbm, ⟨12, _⟩ => ⟨S4x8192x1, .f32⟩
  | .hbm, ⟨13, _⟩ => ⟨S4x8192x64, .f32⟩
  | .hbm, ⟨14, _⟩ => ⟨S4x8192x64, .f32⟩
  | .hbm, ⟨15, _⟩ => ⟨S4x8192x64, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x64, .f32⟩
  | .hbm, ⟨20, _⟩ => ⟨S4x8192x64, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x8192x64_0_1_2 : S1x1x64.BroadcastsInDim S4x8192x64 (![0, 1, 2] : Fin 3 → Fin S4x8192x64.rank)
  reducesTo_S4x8192x64_S4x8192_d2 : S4x8192x64.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  dot_S4x8192x4096_S4096x64_S4x8192x64_2_0_01_1_n_n_wf : DotDims.WF S4x8192x4096 S4096x64 S4x8192x64 [2] [0] [0, 1] [1] [] []

variable [Facts₀]

def dot_S4x8192x4096_S4096x64_S4x8192x64_2_0_01_1_n_n : DotDims S4x8192x4096 S4096x64 S4x8192x64 where
  lhsContracting := [2]
  rhsContracting := [0]
  lhsNonContracting := [0, 1]
  rhsNonContracting := [1]
  lhsBatch := []
  rhsBatch := []
  wf := dot_S4x8192x4096_S4096x64_S4x8192x64_2_0_01_1_n_n_wf

class Facts : Prop extends Facts₀ where

variable [Facts]
-- ==== Proof.Gate.lean ====
/-
  The gating function both programs compute, as one function of the three argument arrays.

  A token is a pair (b, s) with b < 4 and s < 8192; its logits are the 64 numbers
  l q = (∑ k < 4096, x (b, s, k) · W (k, q)) + bias q. The gate of the token is the softmax of its logits, written the
  numerically careful way: with m the running maximum of the 64 logits, started from a value `ninf`,
  gate q = exp (l q - m) / ∑ q', exp (l q' - m). Everything is on the extended reals, where a finite sum and a
  maximum may be taken in any order; no other law is used, so nothing here asks the inputs to be finite.
-/
import Idealize.ShloMosaic.PureOps.Ideal
import Idealize.ShloMosaic.Lib.ValueIdx

noncomputable section

open scoped BigOperators

namespace Cert.Gate

open Idealize.ShloMosaic Idealize.ShloMosaic.ValueIdx

/-- The softmax of one row of 64 logits `l` at lane `q`: the exponential of the logit less the row's maximum, over the
    sum of those exponentials along the row. The maximum is the fold of `max` over the row from `ninf`. -/
def rowGate (ninf : EReal) (l : Fin 64 → EReal) (q : Fin 64) : EReal :=
  Ideal.div (Ideal.exp (l q - Finset.univ.fold max ninf l))
    (∑ q' : Fin 64, Ideal.exp (l q' - Finset.univ.fold max ninf l))

/-- The logits of token (b, s): the token's row of `X` against each column of `W`, plus the bias. -/
def logits (X : (⟨3, ![4, 8192, 4096]⟩ : Shape).Idx → EReal) (W : (⟨2, ![4096, 64]⟩ : Shape).Idx → EReal)
    (B : (⟨1, ![64]⟩ : Shape).Idx → EReal) (b : Fin 4) (s : Fin 8192) (q : Fin 64) : EReal :=
  (∑ k : Fin 4096, X (ix3 b s k) * W (ix2 k q)) + B (ix1 q)

/-- The gate of token (b, s) at expert q; the running maximum starts from the value of the word `0xFF800000`. -/
def gateAt (X : (⟨3, ![4, 8192, 4096]⟩ : Shape).Idx → EReal) (W : (⟨2, ![4096, 64]⟩ : Shape).Idx → EReal)
    (B : (⟨1, ![64]⟩ : Shape).Idx → EReal) (b : Fin 4) (s : Fin 8192) (q : Fin 64) : EReal :=
  rowGate (Ideal.ofBits .f32 0xFF800000#32) (logits X W B b s) q

/-- The whole result array: entry (b, s, q) is the gate of token (b, s) at expert q. -/
def gate (X : (⟨3, ![4, 8192, 4096]⟩ : Shape).Idx → EReal) (W : (⟨2, ![4096, 64]⟩ : Shape).Idx → EReal)
    (B : (⟨1, ![64]⟩ : Shape).Idx → EReal) : (⟨3, ![4, 8192, 64]⟩ : Shape).Idx → EReal :=
  fun i => gateAt X W B (i 0) (i 1) (i 2)

theorem gate_ix3 (X : (⟨3, ![4, 8192, 4096]⟩ : Shape).Idx → EReal) (W : (⟨2, ![4096, 64]⟩ : Shape).Idx → EReal)
    (B : (⟨1, ![64]⟩ : Shape).Idx → EReal) (b : Fin 4) (s : Fin 8192) (q : Fin 64) :
    gate X W B (ix3 b s q) = gateAt X W B b s q := rfl

/-- A maximum folded from `a` is at least `a`, so taking the maximum with `a` once more changes nothing. -/
theorem max_fold_self {n : ℕ} (a : EReal) (l : Fin n → EReal) :
    max a ((Finset.univ : Finset (Fin n)).fold max a l) = (Finset.univ : Finset (Fin n)).fold max a l :=
  max_eq_right ((Finset.le_fold_max a).mpr (Or.inl le_rfl))

/-- Two rows with the same logits have the same gate. -/
theorem rowGate_congr (ninf : EReal) {l l' : Fin 64 → EReal} (h : ∀ q, l q = l' q) (q : Fin 64) :
    rowGate ninf l q = rowGate ninf l' q := by
  rw [show l = l' from funext h]

end Cert.Gate

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Body.lean ====
/-
  What the kernel's body computes from one block, read at an entry, in exact arithmetic.

  The body holds a block of 1024 tokens `v0` (each a row of 4096 numbers), the weights `v3` (4096 by 64) and the
  bias `v6` (64 numbers). It forms the logits of its tokens — the rows of `v0` against the columns of `v3` on the
  matrix unit, accumulated from zero, plus the bias repeated down the rows —, then along each row the maximum, the
  exponentials of the logits less that maximum, their sum, and the quotients, and stores the result with a
  leading unit axis. The narrowing of the matrix unit's operands to bfloat16 is the identity on exact values.

  Read at row p and lane q of the block, this is the row gate (`Gate.rowGate`) of the row's 64 logits
  l q' = (∑ k, v0 (p, k) · v3 (k, q')) + v6 q'.
-/
import proofs.«119090_g3822520893952_retrytranche1_505_21_alg».proof.Proof.Gen.KernelIdeal.Skeleton
import proofs.«119090_g3822520893952_retrytranche1_505_21_alg».proof.Proof.Gate
import proofs.«119090_g3822520893952_retrytranche1_505_21_alg».proof.Proof.LibLayout
import proofs.«119090_g3822520893952_retrytranche1_505_21_alg».proof.Proof.LibVectorReads
import proofs.«119090_g3822520893952_retrytranche1_505_21_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-! ## The body's value in stages -/

/-- The block of logits: tokens against weights into a zero accumulator, plus the bias on every row. -/
def logitBlock (v0 : Vec F S1024x4096 .f32) (v3 : Vec F S4096x64 .f32) (v6 : Vec F S64 .f32) : FVec F S1024x64 .f32 :=
  addf (matmul dot_S1024x4096_S4096x64_S1024x64_1_0_0_1_n_n none
      (truncf .bf16 (shapeCast S1024x4096 v0 shapeCasts_S1024x4096_S1024x4096) bitsLt_bf16_f32)
      (truncf .bf16 v3 bitsLt_bf16_f32) (constant S1024x64 .f32 0x00000000#32))
    (broadcastTo S1024x64 (shapeCast S1x64 v6 shapeCasts_S64_S1x64) broadcasts_S1x64_S1024x64)

/-- Each row's maximum, folded from the word `0xFF800000`. -/
def rowMaxBlock (v9 : FVec F S1024x64 .f32) : FVec F S1024 .f32 :=
  multiReduction .maximumf [1] S1024 v9 0xFF800000#32 reduces_S1024x64_S1024 (.inl rfl) rfl

/-- A value per row, repeated along the 64 lanes of its row. -/
def alongRows (r : FVec F S1024 .f32) : FVec F S1024x64 .f32 :=
  broadcastTo S1024x64 (shapeCast S1024x1 r shapeCasts_S1024_S1024x1) broadcasts_S1024x1_S1024x64

/-- The exponentials of the logits less their row's maximum. -/
def expBlock (v9 : FVec F S1024x64 .f32) : FVec F S1024x64 .f32 :=
  exp (subf v9 (alongRows (rowMaxBlock v9)))

/-- Each row's sum, accumulated from zero. -/
def rowSumBlock (v14 : FVec F S1024x64 .f32) : FVec F S1024 .f32 :=
  multiReduction .add [1] S1024 v14 0x00000000#32 reduces_S1024x64_S1024 (.inl rfl) rfl

/-- The stored value: the exponentials over their row's sum, with a leading unit axis. -/
def gateBlock (v9 : FVec F S1024x64 .f32) : FVec F S1x1024x64 .f32 :=
  shapeCast S1x1024x64 (divf (expBlock v9) (alongRows (rowSumBlock (expBlock v9)))) shapeCasts_S1024x64_S1x1024x64

/-- The body's stored value is these stages composed. -/
theorem pay_eq (v0 : Vec F S1024x4096 .f32) (v3 : Vec F S4096x64 .f32) (v6 : Vec F S64 .f32) :
    k0_pay1 v0 v3 v6 = gateBlock (logitBlock v0 v3 v6) := rfl

/-! ## The matrix product's dimension numbers: rows by 4096 against 4096 by columns -/

theorem dot_lhs0 (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide),
    dif_pos (show (0 : Fin S1024x4096.rank) ∈ dot_S1024x4096_S4096x64_S1024x64_1_0_0_1_n_n.lhsNonContracting by decide)]
  rfl

theorem dot_lhs1 (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q

theorem dot_rhs0 (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q

theorem dot_rhs1 (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide),
    dif_pos (show (1 : Fin S4096x64.rank) ∈ dot_S1024x4096_S4096x64_S1024x64_1_0_0_1_n_n.rhsNonContracting by decide)]
  rfl

/-! ## Each stage at an entry, on the extended reals -/

/-- Entry (p, q) of the logits: row p of the tokens against column q of the weights, plus the bias at q. -/
theorem logitBlock_apply (v0 : FVec Ideal S1024x4096 .f32) (v3 : FVec Ideal S4096x64 .f32) (v6 : FVec Ideal S64 .f32)
    (p : Fin 1024) (q : Fin 64) :
    logitBlock (F := Ideal) v0 v3 v6 (ix2 p q) = (∑ k : Fin 4096, v0 (ix2 p k) * v3 (ix2 k q)) + v6 (ix1 q) := by
  unfold logitBlock
  refine (addf_apply _ _ (ix2 p q)).trans ?_
  refine congrArg₂ (· + ·) ?_ ?_
  · refine (LibPlainDot.matmul_zero_plain (R := 1024) (K := 4096) (C := 64) dot_S1024x4096_S4096x64_S1024x64_1_0_0_1_n_n rfl rfl
      dot_lhs0 dot_lhs1 dot_rhs0 dot_rhs1 none _ _ p q).trans ?_
    refine Finset.sum_congr rfl fun k _ => ?_
    rw [shapeCast_self]
    rfl
  · exact LibVectorReads.bias_rows_apply (R := 1024) (N := 64) v6 shapeCasts_S64_S1x64 broadcasts_S1x64_S1024x64 p q

/-- Row p's maximum is the fold of `max` over the row's 64 entries. -/
theorem rowMaxBlock_apply (v9 : FVec Ideal S1024x64 .f32) (p : Fin 1024) :
    rowMaxBlock (F := Ideal) v9 (ix1 p)
      = (Finset.univ : Finset (Fin 64)).fold max (Ideal.ofBits .f32 0xFF800000#32) (fun q => v9 (ix2 p q)) := by
  unfold rowMaxBlock
  refine (Ideal.multiReduction_maximumf_single v9 _ reduces_S1024x64_S1024 _ _ (ix1 p)).trans ?_
  refine congrArg (fun f : Fin 64 → EReal => (Finset.univ : Finset (Fin 64)).fold max (Ideal.ofBits .f32 0xFF800000#32) f)
    (funext fun q => congrArg v9 ?_)
  funext c
  apply Fin.ext
  match c with
  | ⟨0, _⟩ => rfl
  | ⟨1, _⟩ => rfl

/-- A per-row value repeated along the lanes reads, at (p, q), the value of row p. -/
theorem alongRows_apply (r : FVec Ideal S1024 .f32) (p : Fin 1024) (q : Fin 64) :
    alongRows (F := Ideal) r (ix2 p q) = r (ix1 p) := by
  unfold alongRows
  exact (LibLayout.broadcastTo_a1_ab_apply (a := 1024) (b := 64) _ broadcasts_S1024x1_S1024x64 p q).trans
    (LibLayout.shapeCast_a_a1_apply (a := 1024) r shapeCasts_S1024_S1024x1 p 0)

/-- Entry (p, q) of the exponentials. -/
theorem expBlock_apply (v9 : FVec Ideal S1024x64 .f32) (p : Fin 1024) (q : Fin 64) :
    expBlock (F := Ideal) v9 (ix2 p q)
      = Ideal.exp (v9 (ix2 p q)
          - (Finset.univ : Finset (Fin 64)).fold max (Ideal.ofBits .f32 0xFF800000#32) (fun q' => v9 (ix2 p q'))) := by
  unfold expBlock
  have e := (alongRows_apply (rowMaxBlock (F := Ideal) v9) p q).trans (rowMaxBlock_apply v9 p)
  exact congrArg (fun z => Ideal.exp (v9 (ix2 p q) - z)) e

/-- Row p's sum is the sum of the row's 64 entries. -/
theorem rowSumBlock_apply (v14 : FVec Ideal S1024x64 .f32) (p : Fin 1024) :
    rowSumBlock (F := Ideal) v14 (ix1 p) = ∑ q : Fin 64, v14 (ix2 p q) := by
  unfold rowSumBlock
  exact LibVectorReads.sum_last2_apply (A := 1024) (B := 64) v14 reduces_S1024x64_S1024 _ _ p

/-- A [1024, 64] block stored with a leading unit axis reads, at (0, p, q), the block at (p, q). -/
theorem leadingUnit_apply {α : Type} (v : S1024x64.Idx → α) (p : Fin 1024) (q : Fin 64) :
    shapeCast S1x1024x64 v shapeCasts_S1024x64_S1x1024x64 (ix3 (0 : Fin 1) p q) = v (ix2 p q) :=
  shapeCast_apply v _ _ _ (by
    rw [Shape.rowMajor_val_two, Shape.rowMajor_val_three]
    show p.val * 64 + q.val = ((0 : Fin 1).val * 1024 + p.val) * 64 + q.val
    simp)

/-- Entry (0, p, q) of the stored value is the row gate of row p's logits at lane q. -/
theorem gateBlock_apply (v9 : FVec Ideal S1024x64 .f32) (p : Fin 1024) (q : Fin 64) :
    gateBlock (F := Ideal) v9 (ix3 (0 : Fin 1) p q)
      = Gate.rowGate (Ideal.ofBits .f32 0xFF800000#32) (fun q' => v9 (ix2 p q')) q := by
  unfold gateBlock
  refine (leadingUnit_apply _ p q).trans ?_
  refine (divf_apply _ _ (ix2 p q)).trans ?_
  unfold Gate.rowGate
  refine congrArg₂ Ideal.div (expBlock_apply v9 p q) ?_
  refine (alongRows_apply _ p q).trans ((rowSumBlock_apply _ p).trans ?_)
  exact Finset.sum_congr rfl fun q' _ => expBlock_apply v9 p q'

/-- The body's stored value at (0, p, q): the row gate of the logits of the block's row p. -/
theorem pay_apply (v0 : FVec Ideal S1024x4096 .f32) (v3 : FVec Ideal S4096x64 .f32) (v6 : FVec Ideal S64 .f32)
    (p : Fin 1024) (q : Fin 64) :
    k0_pay1 (F := Ideal) v0 v3 v6 (ix3 (0 : Fin 1) p q)
      = Gate.rowGate (Ideal.ofBits .f32 0xFF800000#32)
          (fun q' => (∑ k : Fin 4096, v0 (ix2 p k) * v3 (ix2 k q')) + v6 (ix1 q')) q := by
  rw [pay_eq]
  refine (gateBlock_apply _ p q).trans ?_
  exact Gate.rowGate_congr _ (fun q' => logitBlock_apply v0 v3 v6 p q') q

end Cert.KernelIdeal.Body

end
-- ==== Proof.Blocks.lean ====
/-
  From the blocks the kernel writes to its whole result array.

  The 4 · 8192 tokens are laid out as 32768 rows and cut into 32 blocks of 1024 consecutive rows; grid point t
  works on rows 1024 t … 1024 t + 1023, every point with the whole weights and the whole bias. Row r of the flat
  layout is token (r / 8192, r mod 8192), so point t's rows are tokens (t / 8, 1024 (t mod 8) + p), p < 1024 —
  exactly the block of the result array that point t writes back. Hence what point t writes is block t of the gating
  function of the three arguments; the 32 blocks tile the result array, so after the run the array is that function.
-/
import proofs.«119090_g3822520893952_retrytranche1_505_21_alg».proof.Proof.Gen.KernelIdeal.Frame
import proofs.«119090_g3822520893952_retrytranche1_505_21_alg».proof.Proof.Gen.KernelIdeal.Value
import proofs.«119090_g3822520893952_retrytranche1_505_21_alg».proof.Proof.Gate
import proofs.«119090_g3822520893952_retrytranche1_505_21_alg».proof.Proof.Body
import Idealize.ShloMosaic.Lib.Pipeline.Value
import Idealize.ShloMosaic.Lib.StableHlo.Run
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array: the gating function of the three argument arrays. -/
abbrev result (c : Dev nD) : Buf (Elt Ideal) ((c : Thread nD τ).loc main_v1) :=
  Gate.gate (m ((c : Thread nD τ).loc main_arg0)) (m ((c : Thread nD τ).loc main_arg1)) (m ((c : Thread nD τ).loc main_arg2))

/-- The block index of each window at point t: the tokens' window moves down one block of rows per point, the
    weights and the bias stay, and the result's window is at (t / 8, t mod 8, 0). Decided over the 32 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = t.val / 8 ∧ win0_3.index t (1 : Fin 3) = t.val % 8 ∧ win0_3.index t (2 : Fin 3) = 0 :=
  (by decide +kernel : ∀ t : Fin grid0.N, _)

/-! ## The arrays the region finds -/

/-- The flat layout of the tokens: the first argument reshaped to 32768 rows. -/
theorem flat_eq (c : Dev nD) :
    (V m c main_v0 : S32768x4096.Idx → EReal)
      = shapeCast S32768x4096 (m ((c : Thread nD τ).loc main_arg0)) shapeCasts_S4x8192x4096_S32768x4096 := by
  dsimp only [Gen.V, Gen.hostOps0]
  after_results
  rfl

/-- Row `r` of the flat layout is token (b, s) when r = 8192 b + s. -/
theorem flat_apply (c : Dev nD) (r : Fin 32768) (k : Fin 4096) (b : Fin 4) (s : Fin 8192)
    (h : b.val * 8192 + s.val = r.val) :
    (V m c main_v0 : S32768x4096.Idx → EReal) (ix2 r k)
      = (m ((c : Thread nD τ).loc main_arg0) : S4x8192x4096.Idx → EReal) (ix3 b s k) := by
  rw [flat_eq]
  refine shapeCast_apply _ _ _ _ ?_
  show ((⟨3, ![4, 8192, 4096]⟩ : Shape).rowMajor (ix3 b s k)).val = ((⟨2, ![32768, 4096]⟩ : Shape).rowMajor (ix2 r k)).val
  rw [Shape.rowMajor_val_three, Shape.rowMajor_val_two]
  show (b.val * 8192 + s.val) * 4096 + k.val = r.val * 4096 + k.val
  rw [h]

/-! ## The input blocks at a point -/

/-- Row p of point t's block of tokens is token (b, s) when 8192 b + s = 1024 t + p. -/
theorem tokens_apply (c : Dev nD) (t : Fin cfg0.N) (p : Fin 1024) (k : Fin 4096) (b : Fin 4) (s : Fin 8192)
    (h : b.val * 8192 + s.val = t.val * 1024 + p.val) :
    (iblk m c 0 t : Vec Ideal S1024x4096 .f32) (ix2 p k)
      = (m ((c : Thread nD τ).loc main_arg0) : S4x8192x4096.Idx → EReal) (ix3 b s k) := by
  obtain ⟨e0, e1, -⟩ := idx_facts t
  have hN : cfg0.N = 32 := N_0
  have ht : t.val < 32 := by have := t.isLt; omega
  unfold iblk
  rw [View.read_apply]
  show (V m c main_v0 : S32768x4096.Idx → EReal) _ = _
  refine (congrArg (V m c main_v0 : S32768x4096.Idx → EReal) ?_).trans
    (flat_apply m c ⟨t.val * 1024 + p.val, by omega⟩ k b s h)
  funext a
  apply Fin.ext
  match a with
  | ⟨0, _⟩ => show win0_0.index t (0 : Fin 2) * 1024 + 1 * p.val = t.val * 1024 + p.val; rw [e0]; omega
  | ⟨1, _⟩ => show win0_0.index t (1 : Fin 2) * 4096 + 1 * k.val = k.val; rw [e1, Nat.zero_mul, Nat.zero_add, Nat.one_mul]

/-- Every point's block of weights is the whole second argument. -/
theorem weights_apply (c : Dev nD) (t : Fin cfg0.N) (k : Fin 4096) (q : Fin 64) :
    (iblk m c 1 t : Vec Ideal S4096x64 .f32) (ix2 k q)
      = (m ((c : Thread nD τ).loc main_arg1) : S4096x64.Idx → EReal) (ix2 k q) := by
  obtain ⟨-, -, e0, e1, -⟩ := idx_facts t
  unfold iblk
  rw [View.read_apply]
  show (V m c main_arg1 : S4096x64.Idx → EReal) _ = _
  rw [V_main_arg1]
  refine congrArg (m ((c : Thread nD τ).loc main_arg1) : S4096x64.Idx → EReal) ?_
  funext a
  apply Fin.ext
  match a with
  | ⟨0, _⟩ => show win0_1.index t (0 : Fin 2) * 4096 + 1 * k.val = k.val; rw [e0]; omega
  | ⟨1, _⟩ => show win0_1.index t (1 : Fin 2) * 64 + 1 * q.val = q.val; rw [e1]; omega

/-- Every point's block of the bias is the whole third argument. -/
theorem bias_apply (c : Dev nD) (t : Fin cfg0.N) (q : Fin 64) :
    (iblk m c 2 t : Vec Ideal S64 .f32) (ix1 q)
      = (m ((c : Thread nD τ).loc main_arg2) : S64.Idx → EReal) (ix1 q) := by
  obtain ⟨-, -, -, -, e0, -⟩ := idx_facts t
  unfold iblk
  rw [View.read_apply]
  show (V m c main_arg2 : S64.Idx → EReal) _ = _
  rw [V_main_arg2]
  refine congrArg (m ((c : Thread nD τ).loc main_arg2) : S64.Idx → EReal) ?_
  funext a
  apply Fin.ext
  match a with
  | ⟨0, _⟩ => show win0_2.index t (0 : Fin 1) * 64 + 1 * q.val = q.val; rw [e0]; omega

/-! ## What a point writes back, and the whole array -/

/-- What point t writes back is block t of the gating function of the arguments. -/
theorem flushed_eq (c : Dev nD) (t : Fin cfg0.N) :
    (dats m 0 c).flushed 3 t = ((cfg0.win 3).blk t).view.read (Elt Ideal) (result m c) := by
  obtain ⟨-, -, -, -, -, e0, e1, e2⟩ := idx_facts t
  have hN : cfg0.N = 32 := N_0
  have ht : t.val < 32 := by have := t.isLt; omega
  rw [Cert.KernelIdeal.Value.flushed3]
  unfold out0_3
  rw [View.canon_unit_zero hz3]
  simp only [View.ld_unit_zero (S := S1024x4096) hz2, View.ld_unit_zero (S := S4096x64) hz2,
    View.ld_unit_zero (S := S64) hz1]
  funext j
  obtain ⟨z, p, q, rfl⟩ : ∃ (z : Fin 1) (p : Fin 1024) (q : Fin 64), j = ix3 z p q := ⟨j 0, j 1, j 2, eq_ix3 j⟩
  obtain rfl : z = 0 := Subsingleton.elim _ _
  show k0_pay1 (F := Ideal) (iblk m c 0 t) (iblk m c 1 t) (iblk m c 2 t) (ix3 (0 : Fin 1) p q)
    = result m c (((cfg0.win 3).blk t).view.emb (ix3 (0 : Fin 1) p q))
  have hemb : ((cfg0.win 3).blk t).view.emb (ix3 (0 : Fin 1) p q)
      = ix3 (⟨t.val / 8, by omega⟩ : Fin 4) (⟨t.val % 8 * 1024 + p.val, by omega⟩ : Fin 8192) q := by
    funext a
    apply Fin.ext
    match a with
    | ⟨0, _⟩ => show win0_3.index t (0 : Fin 3) * 1 + 1 * (0 : Fin 1).val = t.val / 8; rw [e0]; simp
    | ⟨1, _⟩ => show win0_3.index t (1 : Fin 3) * 1024 + 1 * p.val = t.val % 8 * 1024 + p.val; rw [e1]; omega
    | ⟨2, _⟩ => show win0_3.index t (2 : Fin 3) * 64 + 1 * q.val = q.val; rw [e2]; omega
  rw [hemb]
  refine (Body.pay_apply (iblk m c 0 t) (iblk m c 1 t) (iblk m c 2 t) p q).trans ?_
  show _ = Gate.gateAt _ _ _ (⟨t.val / 8, by omega⟩ : Fin 4) (⟨t.val % 8 * 1024 + p.val, by omega⟩ : Fin 8192) q
  unfold Gate.gateAt
  refine Gate.rowGate_congr _ (fun q' => ?_) q
  unfold Gate.logits
  refine congrArg₂ (· + ·) (Finset.sum_congr rfl fun k _ => congrArg₂ (· * ·) ?_ ?_) ?_
  · exact tokens_apply m c t p k _ _ (by show t.val / 8 * 8192 + (t.val % 8 * 1024 + p.val) = t.val * 1024 + p.val; omega)
  · exact weights_apply m c t k q'
  · exact bias_apply m c t q'

/-- An index of the result array is in point t's block iff each coordinate is in the block's range on its axis. -/
theorem mem_blk (t : Fin cfg0.N) (i : S4x8192x64.Idx) :
    i ∈ ((cfg0.win 3).blk t).view.set
      ↔ ∀ a : Fin 3, win0_3.index t a * S1x1024x64.size a ≤ (i a).val
          ∧ (i a).val < win0_3.index t a * S1x1024x64.size a + S1x1024x64.size a := by
  show i ∈ ((View.whole main_v1).slice (win0_3.rect t)).set ↔ _
  rw [View.set_slice_whole, Rect.mem_set_unit]
  exact Iff.rfl

/-- The blocks tile the result array: token (b, s) is in the block of point 8 b + s / 1024. -/
theorem cover (i : S4x8192x64.Idx) :
    ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 64 := (i 2).isLt
  have hN : cfg0.N = 32 := N_0
  obtain ⟨t, ht⟩ : ∃ t : Fin cfg0.N, t.val = (i 0).val * 8 + (i 1).val / 1024 :=
    ⟨⟨(i 0).val * 8 + (i 1).val / 1024, by omega⟩, rfl⟩
  obtain ⟨-, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1024 ≤ (i 1).val ∧ (i 1).val < win0_3.index t (1 : Fin 3) * 1024 + 1024
    rw [e1]; omega
  | ⟨2, _⟩ =>
    show win0_3.index t (2 : Fin 3) * 64 ≤ (i 2).val ∧ (i 2).val < win0_3.index t (2 : Fin 3) * 64 + 64
    rw [e2]; omega

/-- So after the run the result array is the gating function of the arguments. -/
theorem final (c : Dev nD) : (dats m 0 c).arrAt 3 cfg0.N = result m c :=
  (dats m 0 c).arrAt_eq_of_cover 3 (result m c) (fun t _ => flushed_eq m c t) cover

/-- The kernel's run: it ends with the result array at the gating function of its arguments, which are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Blocks

end
-- ==== Proof.RefGate.lean ====
/-
  The reference's result is the gating function.

  The reference forms the logits of all 4 · 8192 tokens at once — the tokens against the weights by one contraction
  over the 4096 features, plus the bias repeated over the tokens —, takes each token's maximum over the 64 experts
  (folded from the word `0xFF800000`, and once more maximised with that same value, which changes nothing), the
  exponentials of the logits less that maximum, their sum over the experts (from zero), and the quotients. Read at
  (b, s, q), with the layout operations resolved, each stage is the corresponding part of `Gate.gateAt`.
-/
import proofs.«119090_g3822520893952_retrytranche1_505_21_alg».proof.Proof.Gen.ReferenceIdeal.Read
import proofs.«119090_g3822520893952_retrytranche1_505_21_alg».proof.Proof.Gate
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

variable (X : FVec Ideal S4x8192x4096 .f32) (W : FVec Ideal S4096x64 .f32) (B : FVec Ideal S64 .f32)

/-- Dropping the expert axis of a [4, 8192, 64] array leaves [4, 8192]. -/
theorem dropExperts : S4x8192x64.Reduces [(2 : Fin 3)] S4x8192 := by decide

/-- Entry (b, s, q) of the logits. -/
theorem logits_apply (b : Fin 4) (s : Fin 8192) (q : Fin 64) :
    val_main_v3 (F := Ideal) X W B (ix3 b s q) = Gate.logits X W B b s q := by
  rw [val_main_v3_apply, val_main_v0_apply, val_main_v2_apply, val_main_v1_apply]
  unfold Gate.logits
  refine congrArg₂ (· + ·) (Finset.sum_congr rfl fun k _ => congrArg₂ (· * ·) (congrArg X ?_) (congrArg W ?_)) (congrArg B ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl

/-- Token (b, s)'s maximum over the experts: the fold of `max` over its 64 logits. -/
theorem rowMax_apply (b : Fin 4) (s : Fin 8192) :
    val_main_v4 (F := Ideal) X W B (ix2 b s)
      = (Finset.univ : Finset (Fin 64)).fold max (Ideal.ofBits .f32 0xFF800000#32) (Gate.logits X W B b s) := by
  unfold val_main_v4
  refine (Host.reduce_eq_fold_single (FloatOps.maximumf (F := Ideal) (φ := .f32)) (val_main_v3 (F := Ideal) X W B)
    (val_main_cst (F := Ideal)) reducesTo_S4x8192x64_S4x8192_d2 dropExperts h_S_ (ix2 b s)).trans ?_
  refine congrArg (fun f : Fin 64 → EReal => (Finset.univ : Finset (Fin 64)).fold max (Ideal.ofBits .f32 0xFF800000#32) f)
    (funext fun q => ?_)
  refine (congrArg (val_main_v3 (F := Ideal) X W B) ?_).trans (logits_apply X W B b s q)
  funext c; apply Fin.ext
  match c with
  | ⟨0, _⟩ => rfl
  | ⟨1, _⟩ => rfl
  | ⟨2, _⟩ => rfl

/-- Maximising once more with the starting value leaves the maximum as it is. -/
theorem rowMax'_apply (b : Fin 4) (s : Fin 8192) :
    val_main_v6 (F := Ideal) X W B (ix2 b s)
      = (Finset.univ : Finset (Fin 64)).fold max (Ideal.ofBits .f32 0xFF800000#32) (Gate.logits X W B b s) := by
  rw [val_main_v6_apply, val_main_v5_apply, val_main_cst_0_apply, rowMax_apply]
  exact Gate.max_fold_self _ _

/-- The maximum repeated over the experts reads, at (b, s, q), token (b, s)'s maximum. -/
theorem maxRows_apply (b : Fin 4) (s : Fin 8192) (q : Fin 64) :
    val_main_v8 (F := Ideal) X W B (ix3 b s q)
      = (Finset.univ : Finset (Fin 64)).fold max (Ideal.ofBits .f32 0xFF800000#32) (Gate.logits X W B b s) := by
  rw [val_main_v8_apply, val_main_v7_apply]
  refine (congrArg (val_main_v6 (F := Ideal) X W B) ?_).trans (rowMax'_apply X W B b s)
  funext c; apply Fin.ext
  match c with
  | ⟨0, _⟩ => rfl
  | ⟨1, _⟩ => rfl

/-- Entry (b, s, q) of the exponentials. -/
theorem exps_apply (b : Fin 4) (s : Fin 8192) (q : Fin 64) :
    val_main_v10 (F := Ideal) X W B (ix3 b s q)
      = Ideal.exp (Gate.logits X W B b s q
          - (Finset.univ : Finset (Fin 64)).fold max (Ideal.ofBits .f32 0xFF800000#32) (Gate.logits X W B b s)) := by
  rw [val_main_v10_apply, val_main_v9_apply, logits_apply, maxRows_apply]
  rfl

/-- Token (b, s)'s sum of exponentials over the experts. -/
theorem rowSum_apply (b : Fin 4) (s : Fin 8192) :
    val_main_v11 (F := Ideal) X W B (ix2 b s)
      = ∑ q : Fin 64, Ideal.exp (Gate.logits X W B b s q
          - (Finset.univ : Finset (Fin 64)).fold max (Ideal.ofBits .f32 0xFF800000#32) (Gate.logits X W B b s)) := by
  rw [val_main_v11_apply, val_main_cst_1_apply]
  refine (congrArg (· + _) Ideal.ofBits_zero_f32).trans ((zero_add _).trans ?_)
  refine Finset.sum_congr rfl fun q _ => ?_
  refine (congrArg (val_main_v10 (F := Ideal) X W B) ?_).trans (exps_apply X W B b s q)
  funext c; apply Fin.ext
  match c with
  | ⟨0, _⟩ => rfl
  | ⟨1, _⟩ => rfl
  | ⟨2, _⟩ => rfl

/-- The sum repeated over the experts reads, at (b, s, q), token (b, s)'s sum. -/
theorem sumRows_apply (b : Fin 4) (s : Fin 8192) (q : Fin 64) :
    val_main_v13 (F := Ideal) X W B (ix3 b s q) = val_main_v11 (F := Ideal) X W B (ix2 b s) := by
  rw [val_main_v13_apply, val_main_v12_apply]
  refine congrArg (val_main_v11 (F := Ideal) X W B) ?_
  funext c; apply Fin.ext
  match c with
  | ⟨0, _⟩ => rfl
  | ⟨1, _⟩ => rfl

/-- The reference's result array is the gating function of the three arguments. -/
theorem result_eq : val_main_v14 (F := Ideal) X W B = Gate.gate X W B := by
  funext i
  obtain ⟨b, s, q, rfl⟩ : ∃ (b : Fin 4) (s : Fin 8192) (q : Fin 64), i = ix3 b s q := ⟨i 0, i 1, i 2, eq_ix3 i⟩
  rw [val_main_v14_apply, exps_apply, sumRows_apply, rowSum_apply, Gate.gate_ix3]
  rfl

end Cert.ReferenceIdeal.RefValue

end
-- ==== Proof.lean ====
/-
  A gating network over 4 · 8192 tokens of 4096 features and 64 experts: logits = x · W + bias, result = softmax of
  the logits over the experts. The kernel lays the tokens out as 32768 rows, and at each of 32 grid points takes
  1024 consecutive rows through the matrix unit against the whole weights, adds the bias, and applies the softmax in
  its careful form (subtract the row's maximum, exponentiate, divide by the row's sum) before writing the block of
  1024 by 64 results back. The reference computes the logits of all tokens by one contraction and applies the same
  softmax.

  On the extended reals both are one function of the three arguments, entry by entry (`Gate.gate`): the kernel's
  rows are the reference's tokens in another layout, the matrix unit's product into zero and the reference's
  contraction are the same finite sum, the two maxima are folds of `max` over the same 64 logits (the reference
  maximising once more with the value the fold started from), and the two sums of exponentials are the same finite sum.
  Only the commutative-monoid laws of the sum and the order laws of the maximum are used, so the proof never needs the
  inputs to be finite. The three programs run to the end with their arguments unchanged; nothing was rewritten in
  passing from the kernel to its idealization.
-/
import proofs.«119090_g3822520893952_retrytranche1_505_21_alg».proof.Defs
import proofs.«119090_g3822520893952_retrytranche1_505_21_alg».proof.Proof.Gen.Kernel
import proofs.«119090_g3822520893952_retrytranche1_505_21_alg».proof.Proof.Gen.Kernel.Skeleton
import proofs.«119090_g3822520893952_retrytranche1_505_21_alg».proof.Proof.Gen.Kernel.Launch
import proofs.«119090_g3822520893952_retrytranche1_505_21_alg».proof.Proof.Gen.Kernel.Points
import proofs.«119090_g3822520893952_retrytranche1_505_21_alg».proof.Proof.Gen.Kernel.Frame
import proofs.«119090_g3822520893952_retrytranche1_505_21_alg».proof.Proof.Gen.KernelIdeal
import proofs.«119090_g3822520893952_retrytranche1_505_21_alg».proof.Proof.Gen.KernelIdeal.Skeleton
import proofs.«119090_g3822520893952_retrytranche1_505_21_alg».proof.Proof.Gen.KernelIdeal.Launch
import proofs.«119090_g3822520893952_retrytranche1_505_21_alg».proof.Proof.Gen.KernelIdeal.Points
import proofs.«119090_g3822520893952_retrytranche1_505_21_alg».proof.Proof.Gen.KernelIdeal.Frame
import proofs.«119090_g3822520893952_retrytranche1_505_21_alg».proof.Proof.Gen.ReferenceIdeal
import proofs.«119090_g3822520893952_retrytranche1_505_21_alg».proof.Proof.Gen.Pre_finite_inputs
import proofs.«119090_g3822520893952_retrytranche1_505_21_alg».proof.Proof.Gen.KernelIdeal.Value
import proofs.«119090_g3822520893952_retrytranche1_505_21_alg».proof.Proof.Gen.ReferenceIdeal.Run
import proofs.«119090_g3822520893952_retrytranche1_505_21_alg».proof.Proof.Gen.ReferenceIdeal.Read
import proofs.«119090_g3822520893952_retrytranche1_505_21_alg».proof.Proof.Blocks
import proofs.«119090_g3822520893952_retrytranche1_505_21_alg».proof.Proof.RefGate
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the three arguments, both programs end with the result array at the gating function
    of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
